-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x16x2048 : Shape := ⟨4, ![4, 3, 16, 2048]⟩
abbrev S_ : Shape := ⟨0, ![]⟩

class Facts : Prop where
  bcast_S_S4x3x16x2048 : S_.BroadcastsInDim S4x3x16x2048 (![] : Fin 0 → Fin S4x3x16x2048.rank)
  reducesTo_S4x3x16x2048_S_d0_1_2_3 : S4x3x16x2048.ReducesTo [0, 1, 2, 3] S_
  h_S_ : 0 < S_.numel

variable [Facts]

def fn {F : FTy → Type} [FloatOps F] (main_arg0 : FVec F S4x3x16x2048 .f32) (main_arg1 : FVec F S4x3x16x2048 .f32) : IVec S_ 1 :=
  let main_v0 : FVec F S4x3x16x2048 .f32 := Host.absf main_arg0
  let main_cst : FVec F S_ .f32 := constant S_ .f32 0x7F800000#32
  let main_v1 : FVec F S4x3x16x2048 .f32 := broadcastInDim S4x3x16x2048 ![] bcast_S_S4x3x16x2048 main_cst
  let main_v2 : IVec S4x3x16x2048 1 := cmpf .olt main_v0 main_v1
  let main_c : IVec S_ 1 := constantI S_ 1 1#1
  let main_v3 : IVec S_ 1 := (fun x v => Host.reduce IntOp.andi x v reducesTo_S4x3x16x2048_S_d0_1_2_3 h_S_) main_v2 main_c
  let main_v4 : FVec F S4x3x16x2048 .f32 := Host.absf main_arg1
  let main_cst_0 : FVec F S_ .f32 := constant S_ .f32 0x7F800000#32
  let main_v5 : FVec F S4x3x16x2048 .f32 := broadcastInDim S4x3x16x2048 ![] bcast_S_S4x3x16x2048 main_cst_0
  let main_v6 : IVec S4x3x16x2048 1 := cmpf .olt main_v4 main_v5
  let main_c_1 : IVec S_ 1 := constantI S_ 1 1#1
  let main_v7 : IVec S_ 1 := (fun x v => Host.reduce IntOp.andi x v reducesTo_S4x3x16x2048_S_d0_1_2_3 h_S_) main_v6 main_c_1
  let main_v8 : IVec S_ 1 := andi main_v3 main_v7
  main_v8
-- ==== Kernel.lean ====
abbrev S4x3x16x2048 : Shape := ⟨4, ![4, 3, 16, 2048]⟩
abbrev S1x1 : Shape := ⟨2, ![1, 1]⟩
abbrev S1x3x16x2048 : Shape := ⟨4, ![1, 3, 16, 2048]⟩
abbrev S2048x2048 : Shape := ⟨2, ![2048, 2048]⟩
abbrev S3x16x2048 : Shape := ⟨3, ![3, 16, 2048]⟩
abbrev S3x1x2048 : Shape := ⟨3, ![3, 1, 2048]⟩
abbrev S3x2048 : Shape := ⟨2, ![3, 2048]⟩
abbrev S1x2048 : Shape := ⟨2, ![1, 2048]⟩
abbrev S2048x1 : Shape := ⟨2, ![2048, 1]⟩
abbrev S2048x3 : Shape := ⟨2, ![2048, 3]⟩
abbrev S2048 : Shape := ⟨1, ![2048]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4x3x16x2048, .f32⟩
  | .hbm, ⟨1, _⟩ => ⟨S4x3x16x2048, .f32⟩
  | .hbm, ⟨2, _⟩ => ⟨S1x1, .f32⟩
  | .hbm, ⟨3, _⟩ => ⟨S_, .f32⟩
  | .local _ .vmem, ⟨0, _⟩ => ⟨S1x3x16x2048, .f32⟩
  | .local _ .vmem, ⟨1, _⟩ => ⟨S1x3x16x2048, .f32⟩
  | .local _ .vmem, ⟨2, _⟩ => ⟨S1x3x16x2048, .f32⟩
  | .local _ .vmem, ⟨3, _⟩ => ⟨S1x3x16x2048, .f32⟩
  | .local _ .vmem, ⟨4, _⟩ => ⟨S1x1, .f32⟩
  | .local _ .vmem, ⟨5, _⟩ => ⟨S2048x2048, .f32⟩
  | _, _ => ⟨S4x3x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x3x16x2048_S1x3x16x2048_0_0_0_0 : ∀ a, (![0, 0, 0, 0] : Fin 4 → Nat) a + S1x3x16x2048.size a ≤ S1x3x16x2048.size a
  h_S1x3x16x2048 : 0 < S1x3x16x2048.numel
  shapeCasts_S1x3x16x2048_S3x16x2048 : S1x3x16x2048.ShapeCasts S3x16x2048
  slices_S3x16x2048_o0_0_0_S3x1x2048 : S3x16x2048.Slices ![0, 0, 0] S3x1x2048
  shapeCasts_S3x1x2048_S3x2048 : S3x1x2048.ShapeCasts S3x2048
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  transposes_S1x2048_p1_0_S2048x1 : S1x2048.Transposes [1, 0] S2048x1
  bitsLt_bf16_f32 : FTy.bits .bf16 < FTy.bits .f32
  transposes_S3x2048_p1_0_S2048x3 : S3x2048.Transposes [1, 0] S2048x3
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S2048x1_S2048x2048 : S2048x1.Broadcasts S2048x2048
  broadcasts_S1x2048_S2048x2048 : S1x2048.Broadcasts S2048x2048
  reduces_S2048x2048_S2048 : S2048x2048.Reduces [0] S2048
  shapeCasts_S2048_S1x2048 : S2048.ShapeCasts S1x2048
  reduces_S1x2048_S1 : S1x2048.Reduces [1] S1
  shapeCasts_S1_S1x1 : S1.ShapeCasts S1x1
  reduces_S2048x2048_S2048_2 : S2048x2048.Reduces [1] S2048
  shapeCasts_S2048_S2048x1 : S2048.ShapeCasts S2048x1
  reduces_S2048x1_S1 : S2048x1.Reduces [0] S1
  slices_S3x16x2048_o0_1_0_S3x1x2048 : S3x16x2048.Slices ![0, 1, 0] S3x1x2048
  slices_S3x16x2048_o0_2_0_S3x1x2048 : S3x16x2048.Slices ![0, 2, 0] S3x1x2048
  slices_S3x16x2048_o0_3_0_S3x1x2048 : S3x16x2048.Slices ![0, 3, 0] S3x1x2048
  slices_S3x16x2048_o0_4_0_S3x1x2048 : S3x16x2048.Slices ![0, 4, 0] S3x1x2048
  slices_S3x16x2048_o0_5_0_S3x1x2048 : S3x16x2048.Slices ![0, 5, 0] S3x1x2048
  slices_S3x16x2048_o0_6_0_S3x1x2048 : S3x16x2048.Slices ![0, 6, 0] S3x1x2048
  slices_S3x16x2048_o0_7_0_S3x1x2048 : S3x16x2048.Slices ![0, 7, 0] S3x1x2048
  slices_S3x16x2048_o0_8_0_S3x1x2048 : S3x16x2048.Slices ![0, 8, 0] S3x1x2048
  slices_S3x16x2048_o0_9_0_S3x1x2048 : S3x16x2048.Slices ![0, 9, 0] S3x1x2048
  slices_S3x16x2048_o0_10_0_S3x1x2048 : S3x16x2048.Slices ![0, 10, 0] S3x1x2048
  slices_S3x16x2048_o0_11_0_S3x1x2048 : S3x16x2048.Slices ![0, 11, 0] S3x1x2048
  slices_S3x16x2048_o0_12_0_S3x1x2048 : S3x16x2048.Slices ![0, 12, 0] S3x1x2048
  slices_S3x16x2048_o0_13_0_S3x1x2048 : S3x16x2048.Slices ![0, 13, 0] S3x1x2048
  slices_S3x16x2048_o0_14_0_S3x1x2048 : S3x16x2048.Slices ![0, 14, 0] S3x1x2048
  slices_S3x16x2048_o0_15_0_S3x1x2048 : S3x16x2048.Slices ![0, 15, 0] S3x1x2048
  shapeCasts_S1x1_S1x1 : S1x1.ShapeCasts S1x1
  shapeCasts_S1x1_S_ : S1x1.ShapeCasts S_
  dot_S2048x3_S2048x3_S2048x2048_1_1_0_0_n_n_wf : DotDims.WF S2048x3 S2048x3 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x2048.size a ≤ S4x3x16x2048.size a
  hwx0_0 : ∀ i : grid0.Coords, EltTy.bits .f32 = 32 ∨ (Rect.block (s := S4x3x16x2048) S1x3x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16x2048.size a ≤ S4x3x16x2048.size a
  hwx0_1 : ∀ i : grid0.Coords, EltTy.bits .f32 = 32 ∨ (Rect.block (s := S4x3x16x2048) S1x3x16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x3_S2048x3_S2048x2048_1_1_0_0_n_n : DotDims S2048x3 S2048x3 S2048x2048 where
  lhsContracting := [1]
  rhsContracting := [1]
  lhsNonContracting := [0]
  rhsNonContracting := [0]
  lhsBatch := []
  rhsBatch := []
  wf := dot_S2048x3_S2048x3_S2048x2048_1_1_0_0_n_n_wf

abbrev win0_0 : Pipeline.Window sig grid0 :=
  Pipeline.Window.ofSpec (Memref.whole main_arg0) S1x3x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x16x2048 : Shape := ⟨4, ![4, 3, 16, 2048]⟩
abbrev S4x16x2048x3 : Shape := ⟨4, ![4, 16, 2048, 3]⟩
abbrev S_ : Shape := ⟨0, ![]⟩
abbrev S4x16x2048 : Shape := ⟨3, ![4, 16, 2048]⟩
abbrev S4x16x2048x2048 : Shape := ⟨4, ![4, 16, 2048, 2048]⟩
abbrev S4x16x2048x1 : Shape := ⟨4, ![4, 16, 2048, 1]⟩
abbrev S4x16x1x2048 : Shape := ⟨4, ![4, 16, 1, 2048]⟩
abbrev S4x16 : Shape := ⟨2, ![4, 16]⟩

abbrev nBuf : Space → Nat
  | .hbm => 33
  | .vmem => 0
  | .smem => 0
  | _ => 0

abbrev bufTy : (tb : Table) → Fin (tcTables nBuf tb) → BufTy
  | .hbm, ⟨0, _⟩ => ⟨S4x3x16x2048, .f32⟩
  | .hbm, ⟨1, _⟩ => ⟨S4x3x16x2048, .f32⟩
  | .hbm, ⟨2, _⟩ => ⟨S4x16x2048x3, .f32⟩
  | .hbm, ⟨3, _⟩ => ⟨S4x16x2048x3, .f32⟩
  | .hbm, ⟨4, _⟩ => ⟨S4x16x2048x3, .f32⟩
  | .hbm, ⟨5, _⟩ => ⟨S_, .f32⟩
  | .hbm, ⟨6, _⟩ => ⟨S4x16x2048, .f32⟩
  | .hbm, ⟨7, _⟩ => ⟨S4x16x2048x3, .f32⟩
  | .hbm, ⟨8, _⟩ => ⟨S_, .f32⟩
  | .hbm, ⟨9, _⟩ => ⟨S4x16x2048, .f32⟩
  | .hbm, ⟨10, _⟩ => ⟨S4x16x2048x2048, .f32⟩
  | .hbm, ⟨11, _⟩ => ⟨S4x16x2048x1, .f32⟩
  | .hbm, ⟨12, _⟩ => ⟨S4x16x1x2048, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S4x16x2048x2048, .f32⟩
  | .hbm, ⟨20, _⟩ => ⟨S_, .f32⟩
  | .hbm, ⟨21, _⟩ => ⟨S4x16x2048, .f32⟩
  | .hbm, ⟨22, _⟩ => ⟨S_, .f32⟩
  | .hbm, ⟨23, _⟩ => ⟨S4x16, .f32⟩
  | .hbm, ⟨24, _⟩ => ⟨S_, .f32⟩
  | .hbm, ⟨25, _⟩ => ⟨S4x16x2048, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x3x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  transposes_S4x3x16x2048_S4x16x2048x3_0_2_3_1 : S4x3x16x2048.Transposes [0, 2, 3, 1] S4x16x2048x3
  reducesTo_S4x16x2048x3_S4x16x2048_d3 : S4x16x2048x3.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S4x16x2048_S4x16x1x2048_0_1_3 : S4x16x2048.BroadcastsInDim S4x16x1x2048 (![0, 1, 3] : Fin 3 → Fin S4x16x1x2048.rank)
  bcast_S4x16x2048x1_S4x16x2048x2048_0_1_2_3 : S4x16x2048x1.BroadcastsInDim S4x16x2048x2048 (![0, 1, 2, 3] : Fin 4 → Fin S4x16x2048x2048.rank)
  bcast_S4x16x1x2048_S4x16x2048x2048_0_1_2_3 : S4x16x1x2048.BroadcastsInDim S4x16x2048x2048 (![0, 1, 2, 3] : Fin 4 → Fin S4x16x2048x2048.rank)
  bcast_S_S4x16x2048x2048 : S_.BroadcastsInDim S4x16x2048x2048 (![] : Fin 0 → Fin S4x16x2048x2048.rank)
  reducesTo_S4x16x2048x2048_S4x16x2048_d2 : S4x16x2048x2048.ReducesTo [2] S4x16x2048
  reducesTo_S4x16x2048_S4x16_d2 : S4x16x2048.ReducesTo [2] S4x16
  reducesTo_S4x16x2048x2048_S4x16x2048_d3 : S4x16x2048x2048.ReducesTo [3] S4x16x2048
  reducesTo_S4x16_S_d0_1 : S4x16.ReducesTo [0, 1] S_
  dot_S4x16x2048x3_S4x16x2048x3_S4x16x2048x2048_3_3_2_2_01_01_wf : DotDims.WF S4x16x2048x3 S4x16x2048x3 S4x16x2048x2048 [3] [3] [2] [2] [0, 1] [0, 1]

variable [Facts₀]

def dot_S4x16x2048x3_S4x16x2048x3_S4x16x2048x2048_3_3_2_2_01_01 : DotDims S4x16x2048x3 S4x16x2048x3 S4x16x2048x2048 where
  lhsContracting := [3]
  rhsContracting := [3]
  lhsNonContracting := [2]
  rhsNonContracting := [2]
  lhsBatch := [0, 1]
  rhsBatch := [0, 1]
  wf := dot_S4x16x2048x3_S4x16x2048x3_S4x16x2048x2048_3_3_2_2_01_01_wf

class Facts : Prop extends Facts₀ where

variable [Facts]
-- ==== Proof.Body.lean ====
/-
  The kernel body's arithmetic, written once for a symbolic time step.

  The body holds one batch element: two blocks `x` (the points of the first cloud) and `y` (the points of the second),
  each of 3 channels × 16 time steps × 2048 points.  For every time step `t` it forms the 2048 × 2048 matrix
      D[n, m] = (|x_n|² + |y_m|²) − 2 · ⟨x_n, y_m⟩
  of squared distances between point `n` of the first cloud and point `m` of the second, and adds to a running
  scalar first the sum over `m` of the column minima `min_n D[n, m]`, then the sum over `n` of the row minima
  `min_m D[n, m]`.  The sixteen time steps are unrolled in the program text; here they are one recursion.
-/
import proofs.«152634_j84782654423732_2_alg».proof.Proof.Gen.KernelIdeal.Skeleton

noncomputable section

namespace Cert.KernelIdeal.Chamfer

open Idealize.ShloMosaic Idealize.SL.Sem Cert.KernelIdeal Cert.KernelIdeal.Facts₀

variable {F : FTy → Type} [FloatOps F]

/-- Time step `t` of a 3 × 16 × 2048 block is a 3 × 1 × 2048 slab inside it. -/
theorem slab_inside (t : Fin 16) : S3x16x2048.Slices ![0, t.val, 0] S3x1x2048 :=
  ⟨rfl, fun a => by
    have := t.isLt
    match a with
    | ⟨0, _⟩ => show 0 + 3 ≤ 3; omega
    | ⟨1, _⟩ => show t.val + 1 ≤ 16; omega
    | ⟨2, _⟩ => show 0 + 2048 ≤ 2048; omega⟩

/-- The three channel rows of time step `t`: a 3 × 2048 array. -/
def rows (t : Fin 16) (v : FVec F S3x16x2048 .f32) : FVec F S3x2048 .f32 :=
  shapeCast S3x2048 (extractStridedSlice S3x1x2048 ![0, t.val, 0] v (slab_inside t)) shapeCasts_S3x1x2048_S3x2048

/-- The squared norm of each point: the three channel squares added first to last, a 1 × 2048 row. -/
def sqnorm (r : FVec F S3x2048 .f32) : FVec F S1x2048 .f32 :=
  addf (addf (extractStridedSlice S1x2048 ![0, 0] (mulf r r) slices_S3x2048_o0_0_S1x2048)
      (extractStridedSlice S1x2048 ![1, 0] (mulf r r) slices_S3x2048_o1_0_S1x2048))
    (extractStridedSlice S1x2048 ![2, 0] (mulf r r) slices_S3x2048_o2_0_S1x2048)

/-- The inner products ⟨x_n, y_m⟩: the product of the two transposed (and narrowed) row arrays over the channel axis. -/
def cross (rx ry : FVec F S3x2048 .f32) : FVec F S2048x2048 .f32 :=
  matmul dot_S2048x3_S2048x3_S2048x2048_1_1_0_0_n_n none
    (transpose S2048x3 [1, 0] (truncf .bf16 rx bitsLt_bf16_f32) transposes_S3x2048_p1_0_S2048x3)
    (transpose S2048x3 [1, 0] (truncf .bf16 ry bitsLt_bf16_f32) transposes_S3x2048_p1_0_S2048x3)
    (constant S2048x2048 .f32 0x00000000#32)

/-- The matrix of squared distances D[n, m] = (|x_n|² + |y_m|²) − 2 ⟨x_n, y_m⟩. -/
def pdist (rx ry : FVec F S3x2048 .f32) : FVec F S2048x2048 .f32 :=
  shapeCast S2048x2048
    (subf
      (addf
        (broadcastTo S2048x2048 (transpose S2048x1 [1, 0] (sqnorm rx) transposes_S1x2048_p1_0_S2048x1) broadcasts_S2048x1_S2048x2048)
        (broadcastTo S2048x2048 (sqnorm ry) broadcasts_S1x2048_S2048x2048))
      (mulf (broadcast S2048x2048 (Scalar.ofBits .f32 0x40000000#32))
        (shapeCast S2048x2048 (cross rx ry) shapeCasts_S2048x2048_S2048x2048)))
    shapeCasts_S2048x2048_S2048x2048

/-- The sum over the columns `m` of the column minimum `min_n D[n, m]`. -/
def colLoss (D : FVec F S2048x2048 .f32) : FVec F S1x1 .f32 :=
  shapeCast S1x1
    (multiReduction .add [1] S1
      (shapeCast S1x2048 (multiReduction .minimumf [0] S2048 D 0x7F800000#32 reduces_S2048x2048_S2048 (.inl rfl) rfl)
        shapeCasts_S2048_S1x2048)
      0x00000000#32 reduces_S1x2048_S1 (.inl rfl) rfl)
    shapeCasts_S1_S1x1

/-- The sum over the rows `n` of the row minimum `min_m D[n, m]`. -/
def rowLoss (D : FVec F S2048x2048 .f32) : FVec F S1x1 .f32 :=
  shapeCast S1x1
    (multiReduction .add [0] S1
      (shapeCast S2048x1 (multiReduction .minimumf [1] S2048 D 0x7F800000#32 reduces_S2048x2048_S2048_2 (.inl rfl) rfl)
        shapeCasts_S2048_S2048x1)
      0x00000000#32 reduces_S2048x1_S1 (.inl rfl) rfl)
    shapeCasts_S1_S1x1

/-- One time step: the running scalar plus the column loss, plus the row loss. -/
def step (acc : FVec F S1x1 .f32) (t : Fin 16) (x y : FVec F S3x16x2048 .f32) : FVec F S1x1 .f32 :=
  addf (addf acc (colLoss (pdist (rows t x) (rows t y)))) (rowLoss (pdist (rows t x) (rows t y)))

/-- The running scalar after the first `n` time steps, from zero. -/
def accTo (x y : FVec F S3x16x2048 .f32) : (n : ℕ) → n ≤ 16 → FVec F S1x1 .f32
  | 0, _ => broadcast S1x1 (Scalar.ofBits .f32 0x00000000#32)
  | n + 1, h => step (accTo x y n (Nat.le_of_succ_le h)) ⟨n, h⟩ x y

/-- What one grid point adds to the output: all sixteen time steps of its two blocks
    (`x0` the block of the first argument, `x1` of the second; the second plays `x`). -/
def body (x0 x1 : Vec F S1x3x16x2048 .f32) : FVec F S1x1 .f32 :=
  accTo (shapeCast S3x16x2048 x1 shapeCasts_S1x3x16x2048_S3x16x2048)
    (shapeCast S3x16x2048 x0 shapeCasts_S1x3x16x2048_S3x16x2048) 16 (Nat.le_refl 16)

end Cert.KernelIdeal.Chamfer

end
-- ==== Proof.LibCoveredLoad.lean ====
/-
  A load through the whole-shape rectangle, after a list of stores whose LAST store went through that same
  rectangle, reads that last store's payload, whatever was stored before it.  (The one-store case is the
  library's; a buffer that is overwritten whole many times in a row needs the general one.)
-/
import Idealize.ShloMosaic.Lib.Pipeline.Value

namespace Idealize.ShloMosaic.View

variable {Val : EltTy → Type} {S : Shape} {e : EltTy}

/-- After stores the last of which wrote `w` through the whole-shape rectangle at zero offsets, a load through
    that rectangle reads `w`: the last whole store hides every earlier one. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View
-- ==== Proof.Pieces.lean ====
/-
  What one grid point leaves in the output's one-element staging buffer, in each of the body's three control cases.

  The body first zeroes the buffer when the point is the first, then adds to the buffer what the point's sixteen time
  steps contribute (`Chamfer.body`), then, when the point is the last, scales the buffer by the constant 2⁻⁶.  In between
  it overwrites its 2048 × 2048 scratch buffer whole, twice per time step, and reads it back: each read-back sees only
  the last whole store.  So with `o` the buffer's contents before the point and `s` the point's contribution:
      first point:   0 + s        middle points:   o + s        last point:   (o + s) · 2⁻⁶.
-/
import proofs.«152634_j84782654423732_2_alg».proof.Proof.Gen.KernelIdeal.Frame
import proofs.«152634_j84782654423732_2_alg».proof.Proof.Body
import proofs.«152634_j84782654423732_2_alg».proof.Proof.LibCoveredLoad
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Chamfer

open Cert.KernelIdeal Cert.KernelIdeal.Gen

variable {F : FTy → Type} [FloatOps F]

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The zero the first point stores. -/
abbrev zero11 : Vec F S1x1 .f32 := broadcast S1x1 (Scalar.ofBits .f32 0x00000000#32)

/-- The buffer read back and added to: `o + s`. -/
abbrev plus (o : Vec F S1x1 .f32) (s : FVec F S1x1 .f32) : FVec F S1x1 .f32 :=
  addf (shapeCast S1x1 o Facts₀.shapeCasts_S1x1_S1x1) s

/-- The buffer read back and scaled by 2⁻⁶ (the word `0x3C800000`). -/
abbrev scaled (o : Vec F S1x1 .f32) : FVec F S1x1 .f32 :=
  mulf (shapeCast S1x1 o Facts₀.shapeCasts_S1x1_S1x1) (broadcast S1x1 (Scalar.ofBits .f32 0x3C800000#32))

/-- A middle point: `o + s`. -/
theorem out_B (c : Dev nD) (i : grid0.Coords) (a1 : Memref sig .tc .vmem S1x3x16x2048 .f32) (h1 : a1.IsWhole)
    (a2 : Memref sig .tc .vmem S1x3x16x2048 .f32) (h2 : a2.IsWhole) (a3 : Memref sig .tc .vmem S1x1 .f32) (h3 : a3.IsWhole)
    (a4 : Memref sig .tc .vmem S2048x2048 .f32) (h4 : a4.IsWhole) (hc0 : ¬cond0_0 i) (hc1 : ¬cond0_1 i)
    (x0 x1 : Vec F S1x3x16x2048 .f32) (xo : Vec F S1x1 .f32) :
    out0_B_2 c i a1 h1 a2 h2 a3 h3 a4 h4 hc0 hc1 x0 x1 xo = plus xo (body x0 x1) := by
  unfold out0_B_2
  rw [View.read_writes_eq_canon _ _ _ (cover0_B_2 c i a1 h1 a2 h2 a3 h3 a4 h4 hc0 hc1 x0 x1 xo)]
  unfold kernelRun0_B
  dsimp only
  sl_unfold_words
  rw [View.canon_unit_zero zeros2]
  simp only [View.readCov_cons_unit_zero (S := S2048x2048) _ zeros2, View.readAt_eq_ld, h1.read_unread, h2.read_unread, h3.read_unread,
    View.ld_unit_zero (S := S1x1) zeros2, View.ld_unit_zero (S := S1x3x16x2048) zeros4]
  rfl

/-- The first point: the zero just stored is read back, `0 + s`. -/
theorem out_A (c : Dev nD) (i : grid0.Coords) (a1 : Memref sig .tc .vmem S1x3x16x2048 .f32) (h1 : a1.IsWhole)
    (a2 : Memref sig .tc .vmem S1x3x16x2048 .f32) (h2 : a2.IsWhole) (a3 : Memref sig .tc .vmem S1x1 .f32) (h3 : a3.IsWhole)
    (a4 : Memref sig .tc .vmem S2048x2048 .f32) (h4 : a4.IsWhole) (hc0 : cond0_0 i) (hc1 : ¬cond0_1 i)
    (x0 x1 : Vec F S1x3x16x2048 .f32) :
    out0_A_2 c i a1 h1 a2 h2 a3 h3 a4 h4 hc0 hc1 x0 x1 = plus zero11 (body x0 x1) := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_cons_unit_zero (S := S1x1) zeros2]
  simp only [View.readCov_cons_unit_zero (S := S2048x2048) _ zeros2, View.readCov_cons_unit_zero (S := S1x1) _ zeros2,
    View.readAt_eq_ld, h1.read_unread, h2.read_unread,
    View.ld_unit_zero (S := S1x3x16x2048) zeros4]
  rfl

/-- The last point: `o + s` is stored, read back and scaled, `(o + s) · 2⁻⁶`. -/
theorem out_C (c : Dev nD) (i : grid0.Coords) (a1 : Memref sig .tc .vmem S1x3x16x2048 .f32) (h1 : a1.IsWhole)
    (a2 : Memref sig .tc .vmem S1x3x16x2048 .f32) (h2 : a2.IsWhole) (a3 : Memref sig .tc .vmem S1x1 .f32) (h3 : a3.IsWhole)
    (a4 : Memref sig .tc .vmem S2048x2048 .f32) (h4 : a4.IsWhole) (hc0 : ¬cond0_0 i) (hc1 : cond0_1 i)
    (x0 x1 : Vec F S1x3x16x2048 .f32) (xo : Vec F S1x1 .f32) :
    out0_C_2 c i a1 h1 a2 h2 a3 h3 a4 h4 hc0 hc1 x0 x1 xo = scaled (plus xo (body x0 x1)) := by
  unfold out0_C_2
  rw [View.read_writes_eq_canon _ _ _ (cover0_C_2 c i a1 h1 a2 h2 a3 h3 a4 h4 hc0 hc1 x0 x1 xo)]
  unfold kernelRun0_C
  dsimp only
  sl_unfold_words
  rw [View.canon_cons_unit_zero (S := S1x1) zeros2]
  simp only [View.readCov_cons_unit_zero (S := S2048x2048) _ zeros2, View.readCov_cons_unit_zero (S := S1x1) _ zeros2,
    View.readAt_eq_ld, h1.read_unread, h2.read_unread, h3.read_unread,
    View.ld_unit_zero (S := S1x1) zeros2, View.ld_unit_zero (S := S1x3x16x2048) zeros4]
  rfl

end Cert.KernelIdeal.Chamfer

end
-- ==== Proof.Spec.lean ====
/-
  The value both programs compute, stated once over the extended reals, with no program in sight.

  For two clouds of 2048 points in 3-space, `X` and `Y` (channel first), the squared distance of `X`'s point `n` to
  `Y`'s point `m` is spelt the way both programs spell it,
      D[n, m] = (|X_n|² + |Y_m|²) − 2 · Σ_c X[c, n] · Y[c, m],
  and the symmetric nearest-neighbour loss of the pair is
      Σ_m min_n D[n, m]  +  Σ_n min_m D[n, m],
  each minimum taken from +∞.  The result is the mean of that loss over the 4 × 16 pairs of clouds.

  The two words the programs share, `2.0` and `+∞`, stay unevaluated: only that they are the same word on both sides
  matters.  Two words are evaluated, `64.0` and `2⁻⁶`: dividing an extended real by 64 is multiplying it by 1/64.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The word `+∞` the minima start from. -/
abbrev top : EReal := Ideal.ofBits .f32 0x7F800000#32
/-- The word `2.0`. -/
abbrev two : EReal := Ideal.ofBits .f32 0x40000000#32

/-- A cloud: 3 channels × 2048 points. -/
abbrev Cloud := Fin 3 → Fin 2048 → EReal

/-- The squared norm of point `n`, the channel squares added first to last. -/
def sq (X : Cloud) (n : Fin 2048) : EReal := X 0 n * X 0 n + X 1 n * X 1 n + X 2 n * X 2 n

/-- The squared distance between `X`'s point `n` and `Y`'s point `m`. -/
def dist (X Y : Cloud) (n m : Fin 2048) : EReal := (sq X n + sq Y m) - two * ∑ c : Fin 3, X c n * Y c m

/-- Each point of `Y` to its nearest point of `X`, summed. -/
def colLoss (X Y : Cloud) : EReal := ∑ m : Fin 2048, (Finset.univ : Finset (Fin 2048)).fold min top (fun n => dist X Y n m)

/-- Each point of `X` to its nearest point of `Y`, summed. -/
def rowLoss (X Y : Cloud) : EReal := ∑ n : Fin 2048, (Finset.univ : Finset (Fin 2048)).fold min top (fun m => dist X Y n m)

/-- The symmetric loss of one pair of clouds. -/
def chamfer (X Y : Cloud) : EReal := colLoss X Y + rowLoss X Y

/-- Cloud (b, t) of a 4 × 3 × 16 × 2048 array. -/
def cloud (A : (⟨4, ![4, 3, 16, 2048]⟩ : Shape).Idx → EReal) (b : Fin 4) (t : Fin 16) : Cloud :=
  fun c n => A (ix4 b c t n)

/-- The loss of batch element `b`: its sixteen time steps added up. `A` is the first argument (it plays `Y`), `B` the
    second (it plays `X`). -/
def batchLoss (A B : (⟨4, ![4, 3, 16, 2048]⟩ : Shape).Idx → EReal) (b : Fin 4) : EReal :=
  ∑ t : Fin 16, chamfer (cloud B b t) (cloud A b t)

/-- The result: the loss over all 64 pairs, times 2⁻⁶. -/
def result (A B : (⟨4, ![4, 3, 16, 2048]⟩ : Shape).Idx → EReal) : EReal :=
  (∑ b : Fin 4, batchLoss A B b) * Ideal.ofBits .f32 0x3C800000#32

/-- The word `0x42800000` is 64. -/
theorem word_64 : Ideal.ofBits .f32 0x42800000#32 = ((64 : ℝ) : EReal) := by
  simp [Ideal.ofBits, Ideal.ieee, -EReal.coe_mul]; norm_num

/-- The word `0x3C800000` is 1/64. -/
theorem word_64th : Ideal.ofBits .f32 0x3C800000#32 = ((1 / 64 : ℝ) : EReal) := by
  simp [Ideal.ofBits, Ideal.ieee, -EReal.coe_mul]; norm_num

/-- Dividing by the word 64 is multiplying by the word 2⁻⁶, on every extended real. -/
theorem div_64 (x : EReal) : Ideal.div x (Ideal.ofBits .f32 0x42800000#32) = x * Ideal.ofBits .f32 0x3C800000#32 := by
  rw [word_64, word_64th, Ideal.div_coe (by norm_num)]

end Cert.Spec

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.StepIdeal.lean ====
/-
  One time step of the kernel body, read at the ideal values.

  Every layout operation of the body reads one element of its operand, every reduction is a sum or a minimum over one
  coordinate, and the matrix product into the zero accumulator is the sum over the three channels.  Read index by index,
  the distance matrix of time step `t` is `Spec.dist` of the two clouds of that time step, the two losses are
  `Spec.colLoss` and `Spec.rowLoss`, and sixteen steps from zero add up to the sum over the time steps.
-/
import proofs.«152634_j84782654423732_2_alg».proof.Proof.Body
import proofs.«152634_j84782654423732_2_alg».proof.Proof.Spec
import proofs.«152634_j84782654423732_2_alg».proof.Proof.LibContract
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chamfer

open Idealize.ShloMosaic Idealize.ShloMosaic.ValueIdx Cert.KernelIdeal Cert.KernelIdeal.Facts₀

/-- The one index of a 1 × 1 array. -/
theorem idx11 (j : S1x1.Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-! ## The layout of one time step -/

/-- Row `c` of time step `t` at point `n` is the block at (c, t, n). -/
theorem rows_apply (t : Fin 16) (v : FVec Ideal S3x16x2048 .f32) (c : Fin 3) (n : Fin 2048) :
    rows t v (ix2 c n) = v (ix3 c t n) := by
  unfold rows
  refine (shapeCast_apply _ shapeCasts_S3x1x2048_S3x2048 (ix2 c n) (ix3 c (0 : Fin 1) n) ?_).trans ?_
  · rw [Shape.rowMajor_val_three, Shape.rowMajor_val_two]
    show (c.val * 1 + 0) * 2048 + n.val = c.val * 2048 + n.val
    omega
  · exact extractStridedSlice_apply _ v (slab_inside t) _ (ix3 c t n) fun a => by
      match a with
      | ⟨0, _⟩ => show c.val = 0 + c.val; omega
      | ⟨1, _⟩ => show t.val = t.val + 0; omega
      | ⟨2, _⟩ => show n.val = 0 + n.val; omega

/-- The squared norm of point `n`: the three channel squares, first to last. -/
theorem sqnorm_apply (r : FVec Ideal S3x2048 .f32) (n : Fin 2048) :
    sqnorm r (ix2 (0 : Fin 1) n) = r (ix2 0 n) * r (ix2 0 n) + r (ix2 1 n) * r (ix2 1 n) + r (ix2 2 n) * r (ix2 2 n) := by
  have e0 := extractStridedSlice_apply (![0, 0] : Fin 2 → ℕ) (mulf r r) slices_S3x2048_o0_0_S1x2048 (ix2 (0 : Fin 1) n)
    (ix2 (0 : Fin 3) n) (fun a => by match a with | ⟨0, _⟩ => rfl | ⟨1, _⟩ => (show n.val = 0 + n.val; omega))
  have e1 := extractStridedSlice_apply (![1, 0] : Fin 2 → ℕ) (mulf r r) slices_S3x2048_o1_0_S1x2048 (ix2 (0 : Fin 1) n)
    (ix2 (1 : Fin 3) n) (fun a => by match a with | ⟨0, _⟩ => rfl | ⟨1, _⟩ => (show n.val = 0 + n.val; omega))
  have e2 := extractStridedSlice_apply (![2, 0] : Fin 2 → ℕ) (mulf r r) slices_S3x2048_o2_0_S1x2048 (ix2 (0 : Fin 1) n)
    (ix2 (2 : Fin 3) n) (fun a => by match a with | ⟨0, _⟩ => rfl | ⟨1, _⟩ => (show n.val = 0 + n.val; omega))
  unfold sqnorm
  rw [addf_apply, addf_apply, e0, e1, e2]
  rfl

/-! ## The matrix product: a sum over the three channels -/

theorem lhs_row (j : S2048x2048.Idx) (q : dot_S2048x3_S2048x3_S2048x2048_1_1_0_0_n_n.contr.Idx) :
    (dot_S2048x3_S2048x3_S2048x2048_1_1_0_0_n_n.lhsIdx j q 0).val = (j 0).val := by
  unfold DotDims.lhsIdx
  rw [dif_neg (show ¬(0 : Fin S2048x3.rank) ∈ dot_S2048x3_S2048x3_S2048x2048_1_1_0_0_n_n.lhsBatch by decide),
    dif_pos (show (0 : Fin S2048x3.rank) ∈ dot_S2048x3_S2048x3_S2048x2048_1_1_0_0_n_n.lhsNonContracting by decide)]
  rfl
theorem lhs_chan (j : S2048x2048.Idx) (q : dot_S2048x3_S2048x3_S2048x2048_1_1_0_0_n_n.contr.Idx) :
    (dot_S2048x3_S2048x3_S2048x2048_1_1_0_0_n_n.lhsIdx j q 1).val = (q ⟨0, by decide⟩).val :=
  dot_S2048x3_S2048x3_S2048x2048_1_1_0_0_n_n.lhsIdx_val_of_single rfl j q
theorem rhs_row (j : S2048x2048.Idx) (q : dot_S2048x3_S2048x3_S2048x2048_1_1_0_0_n_n.contr.Idx) :
    (dot_S2048x3_S2048x3_S2048x2048_1_1_0_0_n_n.rhsIdx j q 0).val = (j 1).val := by
  unfold DotDims.rhsIdx
  rw [dif_neg (show ¬(0 : Fin S2048x3.rank) ∈ dot_S2048x3_S2048x3_S2048x2048_1_1_0_0_n_n.rhsBatch by decide),
    dif_pos (show (0 : Fin S2048x3.rank) ∈ dot_S2048x3_S2048x3_S2048x2048_1_1_0_0_n_n.rhsNonContracting by decide)]
  rfl
theorem rhs_chan (j : S2048x2048.Idx) (q : dot_S2048x3_S2048x3_S2048x2048_1_1_0_0_n_n.contr.Idx) :
    (dot_S2048x3_S2048x3_S2048x2048_1_1_0_0_n_n.rhsIdx j q 1).val = (q ⟨0, by decide⟩).val :=
  dot_S2048x3_S2048x3_S2048x2048_1_1_0_0_n_n.rhsIdx_val_of_single rfl j q

/-- The inner product of point `n` of the first cloud and point `m` of the second (narrowing changes nothing at the
    ideal values; the transposes only exchange the two coordinates). -/
theorem cross_apply (rx ry : FVec Ideal S3x2048 .f32) (n m : Fin 2048) :
    cross rx ry (ix2 n m) = ∑ c : Fin 3, rx (ix2 c n) * ry (ix2 c m) := by
  unfold cross
  refine ContractSingle.matmul_zero_single dot_S2048x3_S2048x3_S2048x2048_1_1_0_0_n_n none 3 rfl rfl _ _ (ix2 n m)
    (fun c => rx (ix2 c n)) (fun c => ry (ix2 c m)) (fun c => ?_) (fun c => ?_)
  · have e : dot_S2048x3_S2048x3_S2048x2048_1_1_0_0_n_n.lhsIdx (ix2 n m)
        ((contrEquiv1 dot_S2048x3_S2048x3_S2048x2048_1_1_0_0_n_n 3 rfl rfl).symm c) = ix2 n c :=
      funext fun a => Fin.ext (by
        match a with
        | ⟨0, _⟩ => exact lhs_row _ _
        | ⟨1, _⟩ => exact (lhs_chan _ _).trans (contrEquiv1_symm_val dot_S2048x3_S2048x3_S2048x2048_1_1_0_0_n_n 3 rfl rfl c))
    rw [e]
    exact transpose_ix2_apply (truncf .bf16 rx bitsLt_bf16_f32) transposes_S3x2048_p1_0_S2048x3 n c
  · have e : dot_S2048x3_S2048x3_S2048x2048_1_1_0_0_n_n.rhsIdx (ix2 n m)
        ((contrEquiv1 dot_S2048x3_S2048x3_S2048x2048_1_1_0_0_n_n 3 rfl rfl).symm c) = ix2 m c :=
      funext fun a => Fin.ext (by
        match a with
        | ⟨0, _⟩ => exact rhs_row _ _
        | ⟨1, _⟩ => exact (rhs_chan _ _).trans (contrEquiv1_symm_val dot_S2048x3_S2048x3_S2048x2048_1_1_0_0_n_n 3 rfl rfl c))
    rw [e]
    exact transpose_ix2_apply (truncf .bf16 ry bitsLt_bf16_f32) transposes_S3x2048_p1_0_S2048x3 m c

/-! ## The distance matrix -/

/-- A column broadcast along the rows reads its one column. -/
theorem colBroadcast_apply (v : FVec Ideal S2048x1 .f32) (n m : Fin 2048) :
    broadcastTo S2048x2048 v broadcasts_S2048x1_S2048x2048 (ix2 n m) = v (ix2 n (0 : Fin 1)) := by
  refine broadcastTo_apply v broadcasts_S2048x1_S2048x2048 (ix2 n m) (ix2 n (0 : Fin 1)) fun ax => ?_
  match ax with
  | ⟨0, _⟩ =>
    show n.val = if (2048 : ℕ) = 1 then 0 else n.val
    rw [if_neg (by decide)]
  | ⟨1, _⟩ =>
    show 0 = if (1 : ℕ) = 1 then 0 else m.val
    rw [if_pos rfl]

/-- The distance matrix of two row arrays is `Spec.dist` of the two clouds they hold. -/
theorem pdist_apply (rx ry : FVec Ideal S3x2048 .f32) (n m : Fin 2048) :
    pdist rx ry (ix2 n m) = Spec.dist (fun c k => rx (ix2 c k)) (fun c k => ry (ix2 c k)) n m := by
  unfold pdist
  rw [shapeCast_self, subf_apply, addf_apply, mulf_apply, broadcast_apply, shapeCast_self, cross_apply,
    colBroadcast_apply, transpose_ix2_apply _ transposes_S1x2048_p1_0_S2048x1 n (0 : Fin 1), sqnorm_apply,
    broadcastTo_1b_ab_apply _ broadcasts_S1x2048_S2048x2048 n m, sqnorm_apply]
  rfl

/-! ## The minima and the two losses -/

/-- The minimum down column `m`. -/
theorem colMin_apply (D : FVec Ideal S2048x2048 .f32) (m : Fin 2048) :
    multiReduction .minimumf [0] S2048 D 0x7F800000#32 reduces_S2048x2048_S2048 (.inl rfl) rfl (ix1 m)
      = (Finset.univ : Finset (Fin 2048)).fold min Spec.top (fun n => D (ix2 n m)) := by
  refine (multiReduction_minimumf_eq_fold D 0x7F800000#32 reduces_S2048x2048_S2048 (.inl rfl) rfl (ix1 m)).trans ?_
  refine (reduces_S2048x2048_S2048.fold_filter_drop_single FloatOps.minimumf _ D (ix1 m)).trans ?_
  show (Finset.univ : Finset (Fin 2048)).fold min Spec.top (D ∘ reduces_S2048x2048_S2048.lift (ix1 m)) = _
  refine congrArg (fun f => (Finset.univ : Finset (Fin 2048)).fold min Spec.top f) (funext fun n => ?_)
  exact congrArg D (funext fun a => Fin.ext (by match a with | ⟨0, _⟩ => rfl | ⟨1, _⟩ => rfl))

/-- The minimum along row `n`. -/
theorem rowMin_apply (D : FVec Ideal S2048x2048 .f32) (n : Fin 2048) :
    multiReduction .minimumf [1] S2048 D 0x7F800000#32 reduces_S2048x2048_S2048_2 (.inl rfl) rfl (ix1 n)
      = (Finset.univ : Finset (Fin 2048)).fold min Spec.top (fun m => D (ix2 n m)) := by
  refine (multiReduction_minimumf_eq_fold D 0x7F800000#32 reduces_S2048x2048_S2048_2 (.inl rfl) rfl (ix1 n)).trans ?_
  refine (reduces_S2048x2048_S2048_2.fold_filter_drop_single FloatOps.minimumf _ D (ix1 n)).trans ?_
  show (Finset.univ : Finset (Fin 2048)).fold min Spec.top (D ∘ reduces_S2048x2048_S2048_2.lift (ix1 n)) = _
  refine congrArg (fun f => (Finset.univ : Finset (Fin 2048)).fold min Spec.top f) (funext fun m => ?_)
  exact congrArg D (funext fun a => Fin.ext (by match a with | ⟨0, _⟩ => rfl | ⟨1, _⟩ => rfl))

/-- The column loss: the column minima summed over the columns. -/
theorem colLoss_apply (D : FVec Ideal S2048x2048 .f32) (j : S1x1.Idx) :
    colLoss D j = ∑ m : Fin 2048, (Finset.univ : Finset (Fin 2048)).fold min Spec.top (fun n => D (ix2 n m)) := by
  unfold colLoss
  refine (shapeCast_apply _ shapeCasts_S1_S1x1 j (ix1 (0 : Fin 1)) ?_).trans ?_
  · rw [idx11 j, Shape.rowMajor_val_one, Shape.rowMajor_val_two]; rfl
  refine (Ideal.multiReduction_add_single (a := 1) _ 0x00000000#32 reduces_S1x2048_S1 (.inl rfl) rfl (ix1 (0 : Fin 1))).trans ?_
  show ∑ m : Fin 2048, shapeCast S1x2048 _ shapeCasts_S2048_S1x2048 (reduces_S1x2048_S1.lift (ix1 (0 : Fin 1)) m) = _
  refine Finset.sum_congr rfl fun m _ => ?_
  have e : reduces_S1x2048_S1.lift (ix1 (0 : Fin 1)) m = ix2 (0 : Fin 1) m :=
    funext fun a => Fin.ext (by match a with | ⟨0, _⟩ => rfl | ⟨1, _⟩ => rfl)
  rw [e]
  exact (shapeCast_a_1a_apply _ shapeCasts_S2048_S1x2048 0 m).trans (colMin_apply D m)

/-- A vector cast to a column reads, at row `n`, the vector at `n`. -/
theorem toColumn_apply (v : FVec Ideal S2048 .f32) (n : Fin 2048) :
    shapeCast S2048x1 v shapeCasts_S2048_S2048x1 (ix2 n (0 : Fin 1)) = v (ix1 n) :=
  shapeCast_apply v shapeCasts_S2048_S2048x1 _ _ (by
    rw [Shape.rowMajor_val_one, Shape.rowMajor_val_two]
    show n.val = n.val * 1 + 0
    omega)

/-- The row loss: the row minima summed over the rows. -/
theorem rowLoss_apply (D : FVec Ideal S2048x2048 .f32) (j : S1x1.Idx) :
    rowLoss D j = ∑ n : Fin 2048, (Finset.univ : Finset (Fin 2048)).fold min Spec.top (fun m => D (ix2 n m)) := by
  unfold rowLoss
  refine (shapeCast_apply _ shapeCasts_S1_S1x1 j (ix1 (0 : Fin 1)) ?_).trans ?_
  · rw [idx11 j, Shape.rowMajor_val_one, Shape.rowMajor_val_two]; rfl
  refine (Ideal.multiReduction_add_single (a := 0) _ 0x00000000#32 reduces_S2048x1_S1 (.inl rfl) rfl (ix1 (0 : Fin 1))).trans ?_
  show ∑ n : Fin 2048, shapeCast S2048x1 _ shapeCasts_S2048_S2048x1 (reduces_S2048x1_S1.lift (ix1 (0 : Fin 1)) n) = _
  refine Finset.sum_congr rfl fun n _ => ?_
  have e : reduces_S2048x1_S1.lift (ix1 (0 : Fin 1)) n = ix2 n (0 : Fin 1) :=
    funext fun a => Fin.ext (by match a with | ⟨0, _⟩ => rfl | ⟨1, _⟩ => rfl)
  rw [e]
  exact (toColumn_apply _ n).trans (rowMin_apply D n)

/-! ## Sixteen steps from zero -/

/-- Time step `t` of a 3 × 16 × 2048 block, as a cloud. -/
def cloudAt (v : FVec Ideal S3x16x2048 .f32) (t : Fin 16) : Spec.Cloud := fun c n => v (ix3 c t n)

/-- One step adds the two losses of time step `t`. -/
theorem step_apply (acc : FVec Ideal S1x1 .f32) (t : Fin 16) (x y : FVec Ideal S3x16x2048 .f32) (j : S1x1.Idx) :
    step acc t x y j = acc j + Spec.colLoss (cloudAt x t) (cloudAt y t) + Spec.rowLoss (cloudAt x t) (cloudAt y t) := by
  unfold step
  rw [addf_apply, addf_apply, colLoss_apply, rowLoss_apply]
  simp only [pdist_apply, rows_apply]
  rfl

/-- After `n` steps the running scalar is the sum of the first `n` time steps' losses. -/
theorem accTo_apply (x y : FVec Ideal S3x16x2048 .f32) (j : S1x1.Idx) : ∀ (n : ℕ) (h : n ≤ 16),
    accTo x y n h j = ∑ t : Fin n, Spec.chamfer (cloudAt x (t.castLE h)) (cloudAt y (t.castLE h))
  | 0, _ => by
    show Ideal.ofBits .f32 0x00000000#32 = _
    rw [Ideal.ofBits_zero_f32, Finset.univ_eq_empty, Finset.sum_empty]
  | n + 1, h => by
    rw [Fin.sum_univ_castSucc]
    show step (accTo x y n (Nat.le_of_succ_le h)) ⟨n, h⟩ x y j = _
    rw [step_apply, accTo_apply x y j n (Nat.le_of_succ_le h), add_assoc]
    rfl

/-- All sixteen steps of a grid point's two blocks. -/
theorem body_apply (x0 x1 : Vec Ideal S1x3x16x2048 .f32) (j : S1x1.Idx) :
    body x0 x1 j = ∑ t : Fin 16, Spec.chamfer (fun c n => x1 (ix4 (0 : Fin 1) c t n)) (fun c n => x0 (ix4 (0 : Fin 1) c t n)) := by
  unfold body
  rw [accTo_apply]
  refine Finset.sum_congr rfl fun t _ => ?_
  have e : ∀ (v : Vec Ideal S1x3x16x2048 .f32), cloudAt (shapeCast S3x16x2048 v shapeCasts_S1x3x16x2048_S3x16x2048) t
      = fun c n => v (ix4 (0 : Fin 1) c t n) := fun v =>
    funext fun c => funext fun n => shapeCast_1abc_abc_apply v shapeCasts_S1x3x16x2048_S3x16x2048 c t n
  show Spec.chamfer (cloudAt _ t) (cloudAt _ t) = _
  rw [e, e]

end Cert.KernelIdeal.Chamfer

end
-- ==== Proof.KernelValue.lean ====
/-
  What the idealized kernel's run leaves in its result.

  The output block never moves: the four grid points (one per batch element) add into one staged element, which is written
  back after the last point only.  So after point 3 it holds
      ((((0 + s₀) + s₁) + s₂) + s₃) · 2⁻⁶,
  with `s_b` the sixteen time steps of batch element `b`; the one write-back fills the 1 × 1 result array with it, and the
  host operation after the region reshapes that array to the scalar result.  Each grid point's input blocks are batch
  element `b` of the two arguments, so `s_b` is `Spec.batchLoss` at `b`.
-/
import proofs.«152634_j84782654423732_2_alg».proof.Proof.Pieces
import proofs.«152634_j84782654423732_2_alg».proof.Proof.StepIdeal
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chamfer

open Cert.KernelIdeal Cert.KernelIdeal.Gen

variable {F : FTy → Type} [FloatOps F]
variable (m : (ℓ : Loc nD τ sig) → Buf (Elt F) ℓ) (ρ : Dev nD → PrngReg)

/-! ## The staged element after each grid point -/

/-- What grid point `t` adds: the sixteen time steps of its two input blocks. -/
abbrev contrib (c : Dev nD) (t : Fin cfg0.N) : FVec F S1x1 .f32 := body (iblk m c 0 t) (iblk m c 1 t)

/-- After the first point: `0 + s₀`. -/
theorem outs_first (c : Dev nD) (t : Fin cfg0.N) (h0 : t.val % 4 = 0) (h1 : ¬t.val % 4 = 3) :
    outsAt0 m c t.val t.isLt = plus zero11 (contrib m c t) :=
  (outsAt0_A m c t h0 h1).trans (out_A ..)

/-- After a middle point: what the point before left, plus `s_t`. -/
theorem outs_mid (c : Dev nD) (t : Fin cfg0.N) (h0 : ¬t.val % 4 = 0) (h1 : ¬t.val % 4 = 3) :
    outsAt0 m c t.val t.isLt
      = plus (outsAt0 m c (t.val - 1) (Nat.lt_of_le_of_lt (Nat.sub_le _ _) t.isLt)) (contrib m c t) :=
  (outsAt0_B m c t h0 h1).trans (out_B ..)

/-- After the last point: the same, scaled by 2⁻⁶. -/
theorem outs_last (c : Dev nD) (t : Fin cfg0.N) (h0 : ¬t.val % 4 = 0) (h1 : t.val % 4 = 3) :
    outsAt0 m c t.val t.isLt
      = scaled (plus (outsAt0 m c (t.val - 1) (Nat.lt_of_le_of_lt (Nat.sub_le _ _) t.isLt)) (contrib m c t)) :=
  (outsAt0_C m c t h0 h1).trans (out_C ..)

theorem lt0 : 0 < cfg0.N := by rw [show cfg0.N = 4 from N_0]; decide
theorem lt1 : 1 < cfg0.N := by rw [show cfg0.N = 4 from N_0]; decide
theorem lt2 : 2 < cfg0.N := by rw [show cfg0.N = 4 from N_0]; decide
theorem lt3 : 3 < cfg0.N := by rw [show cfg0.N = 4 from N_0]; decide

/-- The staged element after the last point, as contents of the 1 × 1 result array (its one block is the array). -/
abbrev result (c : Dev nD) : Buf (Elt F) ((c : Thread nD τ).loc main_v0) := outsAt0 m c 3 lt3

/-- The four points, unrolled: `((((0 + s₀) + s₁) + s₂) + s₃) · 2⁻⁶`. -/
theorem result_eq (c : Dev nD) :
    result m c = scaled (plus (plus (plus (plus zero11 (contrib m c ⟨0, lt0⟩)) (contrib m c ⟨1, lt1⟩)) (contrib m c ⟨2, lt2⟩))
      (contrib m c ⟨3, lt3⟩)) := by
  have e3 : outsAt0 m c 3 lt3 = scaled (plus (outsAt0 m c 2 lt2) (contrib m c ⟨3, lt3⟩)) :=
    outs_last m c ⟨3, lt3⟩ (by decide) rfl
  have e2 : outsAt0 m c 2 lt2 = plus (outsAt0 m c 1 lt1) (contrib m c ⟨2, lt2⟩) :=
    outs_mid m c ⟨2, lt2⟩ (by decide) (by decide)
  have e1 : outsAt0 m c 1 lt1 = plus (outsAt0 m c 0 lt0) (contrib m c ⟨1, lt1⟩) :=
    outs_mid m c ⟨1, lt1⟩ (by decide) (by decide)
  have e0 : outsAt0 m c 0 lt0 = plus zero11 (contrib m c ⟨0, lt0⟩) :=
    outs_first m c ⟨0, lt0⟩ rfl (by decide)
  show outsAt0 m c 3 lt3 = _
  rw [e3, e2, e1, e0]

/-! ## The result array, and the scalar after the region -/

/-- The one write-back, at point 3, writes the staged element: block (0, 0) of the 1 × 1 array is the array. -/
theorem flushed_eq (c : Dev nD) (t : Fin cfg0.N) (hf : (cfg0.win 2).flush t = true) :
    (dats m 0 c).flushed 2 t = ((cfg0.win 2).blk t).view.read (Elt F) (result m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2]
  have hz' : (fun a => win0_2.index t0_3 a * main_v0.ty.shape.size a) = fun _ => 0 := funext fun a => by fin_cases a <;> decide
  exact (Memref.read_access_unit_zero (Elt F) main_v0 hz' (fun a => by rw [congrFun hz' a]; simp) (result m c)).symm

/-- So the result array ends holding the staged element: point 3's block covers it. -/
theorem final_o (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v0).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 1 from by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 1 from by decide +kernel]; omega⟩

/-- The host operation after the region reshapes the 1 × 1 array to the scalar. -/
theorem tail_eq (c : Dev nD) :
    Pipeline.afterTail₀ cfgs (dats m) 0 (V0 m) [hostOps1] c main_v1 = shapeCast S_ (result m c) Facts₀.shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final_o m c)
  exact funext fun i => congrArg (fun x => shapeCast S_ x Facts₀.shapeCasts_S1x1_S_ i) e

/-- The run, read: the scalar result is the reshaped staged element, the arguments are unchanged. -/
theorem run : θ_run defs (onTc (τ := τ) (main (F := F))) ⟨m, fun _ => 0, ρ⟩ fun r => ∀ c : Dev nD,
      r.2.mem ((c : Thread nD τ).loc main_v1) = shapeCast S_ (result m c) Facts₀.shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The input blocks are the batch elements -/

/-- Grid point `t`'s block of the first argument is batch element `t` of it. -/
theorem iblk0_apply (c : Dev nD) (t : Fin cfg0.N) (k : Fin 3) (s : Fin 16) (n : Fin 2048) :
    iblk m c 0 t (ix4 (0 : Fin 1) k s n)
      = m ((c : Thread nD τ).loc main_arg0) (ix4 (⟨t.val, lt_of_lt_of_eq t.isLt N_0⟩ : Fin 4) k s n) := by
  have hi : win0_0.index t 0 = t.val ∧ win0_0.index t 1 = 0 ∧ win0_0.index t 2 = 0 ∧ win0_0.index t 3 = 0 := by
    rcases fin_N0 t with rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [hi.1]; omega
  | ⟨1, _⟩ => show win0_0.index t 1 * 3 + 1 * k.val = k.val; rw [hi.2.1]; omega
  | ⟨2, _⟩ => show win0_0.index t 2 * 16 + 1 * s.val = s.val; rw [hi.2.2.1]; omega
  | ⟨3, _⟩ => show win0_0.index t 3 * 2048 + 1 * n.val = n.val; rw [hi.2.2.2]; omega

/-- Grid point `t`'s block of the second argument is batch element `t` of it. -/
theorem iblk1_apply (c : Dev nD) (t : Fin cfg0.N) (k : Fin 3) (s : Fin 16) (n : Fin 2048) :
    iblk m c 1 t (ix4 (0 : Fin 1) k s n)
      = m ((c : Thread nD τ).loc main_arg1) (ix4 (⟨t.val, lt_of_lt_of_eq t.isLt N_0⟩ : Fin 4) k s n) := by
  have hi : win0_1.index t 0 = t.val ∧ win0_1.index t 1 = 0 ∧ win0_1.index t 2 = 0 ∧ win0_1.index t 3 = 0 := by
    rcases fin_N0 t with rfl | rfl | rfl | rfl <;> decide
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val; rw [hi.1]; omega
  | ⟨1, _⟩ => show win0_1.index t 1 * 3 + 1 * k.val = k.val; rw [hi.2.1]; omega
  | ⟨2, _⟩ => show win0_1.index t 2 * 16 + 1 * s.val = s.val; rw [hi.2.2.1]; omega
  | ⟨3, _⟩ => show win0_1.index t 3 * 2048 + 1 * n.val = n.val; rw [hi.2.2.2]; omega

end Cert.KernelIdeal.Chamfer

end
-- ==== Proof.KernelResult.lean ====
/-
  The idealized kernel's scalar result is `Spec.result` of its two arguments.

  The staged element after the last point is `((((0 + s₀) + s₁) + s₂) + s₃) · 2⁻⁶`; at the ideal values the reshapes
  of a 1 × 1 array are the identity, `s_b` is the loss of batch element `b` (the point's blocks are that element of the
  arguments), and the leading zero drops: the sum over the four batch elements, times 2⁻⁶.
-/
import proofs.«152634_j84782654423732_2_alg».proof.Proof.KernelValue

noncomputable section

open Idealize.ShloMosaic Idealize.ShloMosaic.TcCoe Idealize.SL.Sem Idealize.ShloMosaic.ValueIdx

namespace Cert.KernelIdeal.Chamfer

open Cert.KernelIdeal Cert.KernelIdeal.Gen

variable (m : (ℓ : Loc nD τ sig) → Buf (Elt Ideal) ℓ)

/-- Grid point `t` adds the loss of batch element `t`. -/
theorem contrib_apply (c : Dev nD) (t : Fin cfg0.N) (j : S1x1.Idx) :
    contrib m c t j = Spec.batchLoss (m ((c : Thread nD τ).loc main_arg0)) (m ((c : Thread nD τ).loc main_arg1))
      ⟨t.val, lt_of_lt_of_eq t.isLt N_0⟩ := by
  refine (body_apply (iblk m c 0 t) (iblk m c 1 t) j).trans ?_
  unfold Spec.batchLoss
  refine Finset.sum_congr rfl fun s _ => ?_
  have e1 : (fun (k : Fin 3) (n : Fin 2048) => iblk m c 1 t (ix4 (0 : Fin 1) k s n))
      = Spec.cloud (m ((c : Thread nD τ).loc main_arg1)) ⟨t.val, lt_of_lt_of_eq t.isLt N_0⟩ s :=
    funext fun k => funext fun n => iblk1_apply m c t k s n
  have e0 : (fun (k : Fin 3) (n : Fin 2048) => iblk m c 0 t (ix4 (0 : Fin 1) k s n))
      = Spec.cloud (m ((c : Thread nD τ).loc main_arg0)) ⟨t.val, lt_of_lt_of_eq t.isLt N_0⟩ s :=
    funext fun k => funext fun n => iblk0_apply m c t k s n
  rw [e1, e0]

/-- The staged element read back and added to, at its one index. -/
theorem plus_apply (o : Vec Ideal S1x1 .f32) (s : FVec Ideal S1x1 .f32) (j : S1x1.Idx) : plus o s j = o j + s j := by
  show shapeCast S1x1 o Facts₀.shapeCasts_S1x1_S1x1 j + s j = _
  rw [shapeCast_self]

/-- The staged element read back and scaled, at its one index. -/
theorem scaled_apply (o : Vec Ideal S1x1 .f32) (j : S1x1.Idx) : scaled o j = o j * Ideal.ofBits .f32 0x3C800000#32 := by
  show shapeCast S1x1 o Facts₀.shapeCasts_S1x1_S1x1 j * Ideal.ofBits .f32 0x3C800000#32 = _
  rw [shapeCast_self]

/-- The zero the first point stores is the extended real 0. -/
theorem zero11_apply (j : S1x1.Idx) : (zero11 : Vec Ideal S1x1 .f32) j = 0 := Ideal.ofBits_zero_f32

/-- The 1 × 1 array reshaped to a scalar reads its one element. -/
theorem toScalar_apply (o : Vec Ideal S1x1 .f32) (i : S_.Idx) :
    shapeCast S_ o Facts₀.shapeCasts_S1x1_S_ i = o (ix2 (0 : Fin 1) (0 : Fin 1)) := by
  unfold shapeCast
  exact congrArg o (idx11 _)

/-- Four points from zero, scaled, at the ideal values: the sum of the four contributions times 2⁻⁶. -/
theorem fourPoints (s0 s1 s2 s3 : FVec Ideal S1x1 .f32) (j : S1x1.Idx) :
    scaled (plus (plus (plus (plus zero11 s0) s1) s2) s3) j
      = (s0 j + s1 j + s2 j + s3 j) * Ideal.ofBits .f32 0x3C800000#32 := by
  rw [scaled_apply, plus_apply, plus_apply, plus_apply, plus_apply, zero11_apply, zero_add]

/-- The scalar the run leaves is `Spec.result`. -/
theorem value (c : Dev nD) (i : S_.Idx) :
    shapeCast S_ (result m c) Facts₀.shapeCasts_S1x1_S_ i
      = Spec.result (m ((c : Thread nD τ).loc main_arg0)) (m ((c : Thread nD τ).loc main_arg1)) := by
  refine (toScalar_apply (result m c) i).trans ?_
  refine (congrFun (result_eq m c) _).trans ?_
  refine (fourPoints (contrib m c ⟨0, lt0⟩) (contrib m c ⟨1, lt1⟩) (contrib m c ⟨2, lt2⟩) (contrib m c ⟨3, lt3⟩) _).trans ?_
  rw [contrib_apply m c ⟨0, lt0⟩, contrib_apply m c ⟨1, lt1⟩, contrib_apply m c ⟨2, lt2⟩, contrib_apply m c ⟨3, lt3⟩]
  unfold Spec.result
  rw [Fin.sum_univ_four]
  rfl

end Cert.KernelIdeal.Chamfer

end
-- ==== Proof.RefSide.lean ====
/-
  The reference, read index by index at the ideal values: it computes `Spec.result`.

  The reference transposes both arguments to point-major order, forms the squared norms by a sum over the channel axis
  from zero, the inner products by a batched contraction over the channel axis, the distance array
  D[b, t, n, m] = (|x_n|² + |y_m|²) − 2 ⟨x_n, y_m⟩, its minima over `n` and over `m` from +∞, their sums from zero, the sum
  of the two over all (b, t) from zero, and divides by 64.  Every layout operation reads one element; composing their
  index maps lands on the argument element (b, c, t, ·) that `Spec.cloud` names.
-/
import proofs.«152634_j84782654423732_2_alg».proof.Proof.Gen.ReferenceIdeal.Read
import proofs.«152634_j84782654423732_2_alg».proof.Proof.Spec
import Idealize.ShloMosaic.Lib.ValueIdx
import Idealize.ShloMosaic.PureOps.Ideal.Laws

noncomputable section

namespace Cert.ReferenceIdeal.RefSide

open Idealize.ShloMosaic Idealize.ShloMosaic.ValueIdx Cert.ReferenceIdeal Cert.ReferenceIdeal.Gen Cert.ReferenceIdeal.Read

/-- An argument array at the ideal values. -/
abbrev Arg := (⟨S4x3x16x2048, .f32⟩ : BufTy).Contents (Elt Ideal)

/-! ## Where the composed index maps land -/

theorem at_sqx (b : Fin 4) (t : Fin 16) (n m : Fin 2048) (k : Fin 3) :
    idx_main_v0 (idx_main_v3 (idx_main_v7 (idx_main_v9 (ix4 b t n m))) k) = ix4 b k t n :=
  funext fun a => Fin.ext (by match a with | ⟨0, _⟩ => rfl | ⟨1, _⟩ => rfl | ⟨2, _⟩ => rfl | ⟨3, _⟩ => rfl)
theorem at_sqy (b : Fin 4) (t : Fin 16) (n m : Fin 2048) (k : Fin 3) :
    idx_main_v1 (idx_main_v5 (idx_main_v8 (idx_main_v10 (ix4 b t n m))) k) = ix4 b k t m :=
  funext fun a => Fin.ext (by match a with | ⟨0, _⟩ => rfl | ⟨1, _⟩ => rfl | ⟨2, _⟩ => rfl | ⟨3, _⟩ => rfl)
theorem at_dotx (b : Fin 4) (t : Fin 16) (n m : Fin 2048) (k : Fin 3) :
    idx_main_v0 (lidx_main_v6 (ix4 b t n m) k) = ix4 b k t n :=
  funext fun a => Fin.ext (by match a with | ⟨0, _⟩ => rfl | ⟨1, _⟩ => rfl | ⟨2, _⟩ => rfl | ⟨3, _⟩ => rfl)
theorem at_doty (b : Fin 4) (t : Fin 16) (n m : Fin 2048) (k : Fin 3) :
    idx_main_v1 (ridx_main_v6 (ix4 b t n m) k) = ix4 b k t m :=
  funext fun a => Fin.ext (by match a with | ⟨0, _⟩ => rfl | ⟨1, _⟩ => rfl | ⟨2, _⟩ => rfl | ⟨3, _⟩ => rfl)

/-! ## The distance array -/

/-- Entry (b, t, n, m) of the distance array is `Spec.dist` of clouds (b, t) of the second and the first argument. -/
theorem dist_at (x0 x1 : Arg) (b : Fin 4) (t : Fin 16) (n m : Fin 2048) :
    val_main_v14 (F := Ideal) x0 x1 (ix4 b t n m) = Spec.dist (Spec.cloud x1 b t) (Spec.cloud x0 b t) n m := by
  rw [val_main_v14_apply, val_main_v11_apply, val_main_v13_apply, val_main_v9_apply, val_main_v7_apply, val_main_v3_apply,
    val_main_v10_apply, val_main_v8_apply, val_main_v5_apply, val_main_v12_apply, val_main_cst_1_apply, val_main_v6_apply]
  simp only [val_main_v2_apply, val_main_v4_apply, val_main_v0_apply, val_main_v1_apply, val_main_cst_apply,
    val_main_cst_0_apply, at_sqx, at_sqy, at_dotx, at_doty, Ideal.addf_def, Ideal.subf_def, Ideal.mulf_def, Ideal.ofBits_def,
    Ideal.ofBits_zero_f32, zero_add, Fin.sum_univ_three, Spec.dist, Spec.sq, Spec.cloud]

/-! ## The minima -/

theorem drop_n : S4x16x2048x2048.Reduces [2] S4x16x2048 := by decide
theorem drop_m : S4x16x2048x2048.Reduces [3] S4x16x2048 := by decide

/-- The minimum over the first cloud's points `n`, from +∞. -/
theorem colMin_at (x0 x1 : Arg) (b : Fin 4) (t : Fin 16) (m : Fin 2048) :
    val_main_v15 (F := Ideal) x0 x1 (ix3 b t m)
      = (Finset.univ : Finset (Fin 2048)).fold min Spec.top (fun n => Spec.dist (Spec.cloud x1 b t) (Spec.cloud x0 b t) n m) := by
  unfold val_main_v15
  refine (Host.reduce_eq_fold_single FloatOps.minimumf _ _ reducesTo_S4x16x2048x2048_S4x16x2048_d2 drop_n h_S_ (ix3 b t m)).trans ?_
  show (Finset.univ : Finset (Fin 2048)).fold min Spec.top (val_main_v14 (F := Ideal) x0 x1 ∘ drop_n.lift (ix3 b t m)) = _
  refine congrArg (fun f => (Finset.univ : Finset (Fin 2048)).fold min Spec.top f) (funext fun n => ?_)
  refine (congrArg (val_main_v14 (F := Ideal) x0 x1) (funext fun a => Fin.ext (by
    match a with | ⟨0, _⟩ => rfl | ⟨1, _⟩ => rfl | ⟨2, _⟩ => rfl | ⟨3, _⟩ => rfl) : drop_n.lift (ix3 b t m) n = ix4 b t n m)).trans ?_
  exact dist_at x0 x1 b t n m

/-- The minimum over the second cloud's points `m`, from +∞. -/
theorem rowMin_at (x0 x1 : Arg) (b : Fin 4) (t : Fin 16) (n : Fin 2048) :
    val_main_v17 (F := Ideal) x0 x1 (ix3 b t n)
      = (Finset.univ : Finset (Fin 2048)).fold min Spec.top (fun m => Spec.dist (Spec.cloud x1 b t) (Spec.cloud x0 b t) n m) := by
  unfold val_main_v17
  refine (Host.reduce_eq_fold_single FloatOps.minimumf _ _ reducesTo_S4x16x2048x2048_S4x16x2048_d3 drop_m h_S_ (ix3 b t n)).trans ?_
  show (Finset.univ : Finset (Fin 2048)).fold min Spec.top (val_main_v14 (F := Ideal) x0 x1 ∘ drop_m.lift (ix3 b t n)) = _
  refine congrArg (fun f => (Finset.univ : Finset (Fin 2048)).fold min Spec.top f) (funext fun m => ?_)
  refine (congrArg (val_main_v14 (F := Ideal) x0 x1) (funext fun a => Fin.ext (by
    match a with | ⟨0, _⟩ => rfl | ⟨1, _⟩ => rfl | ⟨2, _⟩ => rfl | ⟨3, _⟩ => rfl) : drop_m.lift (ix3 b t n) m = ix4 b t n m)).trans ?_
  exact dist_at x0 x1 b t n m

/-! ## The two losses of one pair, and the mean -/

theorem at_cols (b : Fin 4) (t : Fin 16) (k : Fin 2048) : idx_main_v16 (ix2 b t) k = ix3 b t k :=
  funext fun a => Fin.ext (by match a with | ⟨0, _⟩ => rfl | ⟨1, _⟩ => rfl | ⟨2, _⟩ => rfl)
theorem at_rows (b : Fin 4) (t : Fin 16) (k : Fin 2048) : idx_main_v18 (ix2 b t) k = ix3 b t k :=
  funext fun a => Fin.ext (by match a with | ⟨0, _⟩ => rfl | ⟨1, _⟩ => rfl | ⟨2, _⟩ => rfl)

/-- The loss of pair (b, t): both sums start from zero. -/
theorem pair_at (x0 x1 : Arg) (b : Fin 4) (t : Fin 16) :
    val_main_v19 (F := Ideal) x0 x1 (ix2 b t) = Spec.chamfer (Spec.cloud x1 b t) (Spec.cloud x0 b t) := by
  rw [val_main_v19_apply, val_main_v16_apply, val_main_v18_apply]
  simp only [at_cols, at_rows, colMin_at, rowMin_at, val_main_cst_3_apply, val_main_cst_5_apply, Ideal.addf_def, Ideal.ofBits_def,
    Ideal.ofBits_zero_f32, zero_add]
  rfl

/-- The reference's result is `Spec.result` of its two arguments. -/
theorem value (x0 x1 : Arg) (i : S_.Idx) : val_main_v21 (F := Ideal) x0 x1 i = Spec.result x0 x1 := by
  rw [val_main_v21_apply, val_main_v20_apply, val_main_cst_7_apply, val_main_cst_6_apply, sum_idx2]
  simp only [pair_at, Ideal.hostDivf_def, Ideal.ofBits_def, Ideal.ofBits_zero_f32, zero_add, Spec.div_64]
  rfl

end Cert.ReferenceIdeal.RefSide

end
-- ==== Proof.lean ====
/-
  The kernel and its reference compute one number: the mean, over 4 batch elements × 16 time steps, of the symmetric
  nearest-neighbour loss between two clouds of 2048 points in 3-space,
      Σ_m min_n D[n, m] + Σ_n min_m D[n, m],     D[n, m] = (|x_n|² + |y_m|²) − 2 ⟨x_n, y_m⟩.

  The kernel visits the batch elements one grid point at a time, unrolls the sixteen time steps, takes the inner
  products by a matrix product over the three channels, and accumulates into one staged element that it zeroes at the
  first point, scales by 2⁻⁶ at the last, and writes back once.  The reference transposes, contracts over the channel
  axis, reduces, and divides by 64.  Over the extended reals the two agree with no use of finiteness: both spell the
  distance with the same grouping, the minima are folds of `min` from the same +∞ over the same index sets, the sums
  differ only in order and in leading zeros (addition of extended reals is commutative and associative), and division
  by 64 is multiplication by 1/64 on every extended real.

  Modules: Spec (the number, program-free) · Body (the kernel body's arithmetic for a symbolic time step) · Pieces (what
  each control case leaves staged) · StepIdeal (the body read at the ideal values) · KernelValue, KernelResult (the
  accumulation over the grid, the write-back, the reshape after the region) · RefSide (the reference read index by
  index).  The three frames are the generated ones; the ideal pass rewrote nothing, so `preserves` is `True`.
-/
import proofs.«152634_j84782654423732_2_alg».proof.Defs
import proofs.«152634_j84782654423732_2_alg».proof.Proof.Gen.Kernel
import proofs.«152634_j84782654423732_2_alg».proof.Proof.Gen.Kernel.Skeleton
import proofs.«152634_j84782654423732_2_alg».proof.Proof.Gen.Kernel.Launch
import proofs.«152634_j84782654423732_2_alg».proof.Proof.Gen.Kernel.Points
import proofs.«152634_j84782654423732_2_alg».proof.Proof.Gen.Kernel.Frame
import proofs.«152634_j84782654423732_2_alg».proof.Proof.Gen.KernelIdeal
import proofs.«152634_j84782654423732_2_alg».proof.Proof.Gen.KernelIdeal.Skeleton
import proofs.«152634_j84782654423732_2_alg».proof.Proof.Gen.KernelIdeal.Launch
import proofs.«152634_j84782654423732_2_alg».proof.Proof.Gen.KernelIdeal.Points
import proofs.«152634_j84782654423732_2_alg».proof.Proof.Gen.KernelIdeal.Frame
import proofs.«152634_j84782654423732_2_alg».proof.Proof.Gen.ReferenceIdeal
import proofs.«152634_j84782654423732_2_alg».proof.Proof.Gen.ReferenceIdeal.Run
import proofs.«152634_j84782654423732_2_alg».proof.Proof.Gen.ReferenceIdeal.Read
import proofs.«152634_j84782654423732_2_alg».proof.Proof.Gen.Pre_finite_inputs
import proofs.«152634_j84782654423732_2_alg».proof.Proof.KernelResult
import proofs.«152634_j84782654423732_2_alg».proof.Proof.RefSide
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the scalar `Spec.result` of the (agreeing) arguments. -/
theorem algebraic : Cert.algebraic_KernelIdeal_ReferenceIdeal := by
  intro m ρ m' ρ' _ hagree
  refine ⟨fun c => shapeCast Cert.KernelIdeal.S_ (Cert.KernelIdeal.Chamfer.result m c)
    Cert.KernelIdeal.Facts₀.shapeCasts_S1x1_S_, Cert.KernelIdeal.Chamfer.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq (F := Ideal) _ _).trans ?_
  funext i
  rw [Cert.ReferenceIdeal.RefSide.value, (hagree c).1, (hagree c).2]
  exact (Cert.KernelIdeal.Chamfer.value m c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
